-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S32x512 : Shape := ⟨2, ![32, 512]⟩
abbrev S100000x96 : Shape := ⟨2, ![100000, 96]⟩
abbrev S50000x64 : Shape := ⟨2, ![50000, 64]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S100000x96 : S_.BroadcastsInDim S100000x96 (![] : Fin 0 → Fin S100000x96.rank)
  reducesTo_S100000x96_S_d0_1 : S100000x96.ReducesTo [0, 1] S_
  bcast_S_S50000x64 : S_.BroadcastsInDim S50000x64 (![] : Fin 0 → Fin S50000x64.rank)
  reducesTo_S50000x64_S_d0_1 : S50000x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S800000 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S800000 .f32 := Host.absf main_arg4
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S50000x512 .f32) (main_arg1 : FVec F S32x512 .f32) (main_arg2 : FVec F S100000x96 .f32) (main_arg3 : FVec F S50000x64 .f32) (main_arg4 : FVec F S800000 .f32) (main_arg5 : IVec S800000 32) (main_arg6 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S100000x96 .f32 := Host.absf main_arg2
  let main_cst_2 : FVec F S_ .f32 := constant S_ .f32 0x7F800000#32
  let main_v10 : FVec F S100000x96 .f32 := broadcastInDim S100000x96 ![] bcast_S_S100000x96 main_cst_2
  let main_v11 : IVec S100000x96 1 := cmpf .olt main_v9 main_v10
  let main_c_3 : IVec S_ 1 := constantI S_ 1 1#1
  let main_v12 : IVec S_ 1 := (fun x v => Host.reduce IntOp.andi x v reducesTo_S100000x96_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg4 main_v13 main_v16
-- ==== Kernel.lean ====
abbrev S50000x512 : Shape := ⟨2, ![50000, 512]⟩
abbrev S32x512 : Shape := ⟨2, ![32, 512]⟩
abbrev S100000x96 : Shape := ⟨2, ![100000, 96]⟩
abbrev S50000x64 : Shape := ⟨2, ![50000, 64]⟩
abbrev S800000 : Shape := ⟨1, ![800000]⟩
abbrev S50000x96 : Shape := ⟨2, ![50000, 96]⟩
abbrev S2000x512 : Shape := ⟨2, ![2000, 512]⟩
abbrev S2000x64 : Shape := ⟨2, ![2000, 64]⟩
abbrev S2000x96 : Shape := ⟨2, ![2000, 96]⟩
abbrev S2000x32 : Shape := ⟨2, ![2000, 32]⟩
abbrev S150000x96 : Shape := ⟨2, ![150000, 96]⟩
abbrev S800000x1 : Shape := ⟨2, ![800000, 1]⟩
abbrev S_ : Shape := ⟨0, ![]⟩
abbrev S800000x96 : Shape := ⟨2, ![800000, 96]⟩
abbrev S6000x96 : Shape := ⟨2, ![6000, 96]⟩

abbrev nBuf : Space → Nat
  | .hbm => 62
  | .vmem => 25
  | .smem => 0
  | _ => 0

abbrev bufTy : (tb : Table) → Fin (tcTables nBuf tb) → BufTy
  | .hbm, ⟨0, _⟩ => ⟨S50000x512, .f32⟩
  | .hbm, ⟨1, _⟩ => ⟨S32x512, .f32⟩
  | .hbm, ⟨2, _⟩ => ⟨S100000x96, .f32⟩
  | .hbm, ⟨3, _⟩ => ⟨S50000x64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S50000x96, .f32⟩
  | .hbm, ⟨8, _⟩ => ⟨S150000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S150000x96, .f32⟩
  | .hbm, ⟨23, _⟩ => ⟨S800000x1, .i32⟩
  | .hbm, ⟨24, _⟩ => ⟨S150000x96, .f32⟩
  | .hbm, ⟨25, _⟩ => ⟨S150000x96, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S800000x96, .f32⟩
  | .hbm, ⟨37, _⟩ => ⟨S800000x96, .f32⟩
  | .hbm, ⟨38, _⟩ => ⟨S_, .f32⟩
  | .hbm, ⟨39, _⟩ => ⟨S150000x96, .f32⟩
  | .hbm, ⟨40, _⟩ => ⟨S800000x1, .i32⟩
  | .hbm, ⟨41, _⟩ => ⟨S150000x96, .f32⟩
  | .hbm, ⟨42, _⟩ => ⟨S150000x96, .f32⟩
  | .hbm, ⟨43, _⟩ => ⟨S800000x1, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S800000x96, .f32⟩
  | .hbm, ⟨54, _⟩ => ⟨S800000x96, .f32⟩
  | .hbm, ⟨55, _⟩ => ⟨S_, .f32⟩
  | .hbm, ⟨56, _⟩ => ⟨S150000x96, .f32⟩
  | .hbm, ⟨57, _⟩ => ⟨S800000x1, .i32⟩
  | .hbm, ⟨58, _⟩ => ⟨S150000x96, .f32⟩
  | .hbm, ⟨59, _⟩ => ⟨S150000x96, .f32⟩
  | .hbm, ⟨60, _⟩ => ⟨S100000x96, .f32⟩
  | .hbm, ⟨61, _⟩ => ⟨S50000x96, .f32⟩
  | .local _ .vmem, ⟨0, _⟩ => ⟨S2000x512, .f32⟩
  | .local _ .vmem, ⟨1, _⟩ => ⟨S2000x512, .f32⟩
  | .local _ .vmem, ⟨2, _⟩ => ⟨S32x512, .f32⟩
  | .local _ .vmem, ⟨3, _⟩ => ⟨S2000x64, .f32⟩
  | .local _ .vmem, ⟨4, _⟩ => ⟨S2000x64, .f32⟩
  | .local _ .vmem, ⟨5, _⟩ => ⟨S2000x96, .f32⟩
  | .local _ .vmem, ⟨6, _⟩ => ⟨S2000x96, .f32⟩
  | .local _ .vmem, ⟨7, _⟩ => ⟨S6000x96, .f32⟩
  | .local _ .vmem, ⟨8, _⟩ => ⟨S6000x96, .f32⟩
  | .local _ .vmem, ⟨9, _⟩ => ⟨S6000x96, .f32⟩
  | .local _ .vmem, ⟨10, _⟩ => ⟨S6000x96, .f32⟩
  | .local _ .vmem, ⟨11, _⟩ => ⟨S6000x96, .f32⟩
  | .local _ .vmem, ⟨12, _⟩ => ⟨S6000x96, .f32⟩
  | .local _ .vmem, ⟨13, _⟩ => ⟨S6000x96, .f32⟩
  | .local _ .vmem, ⟨14, _⟩ => ⟨S6000x96, .f32⟩
  | .local _ .vmem, ⟨15, _⟩ => ⟨S6000x96, .f32⟩
  | .local _ .vmem, ⟨16, _⟩ => ⟨S6000x96, .f32⟩
  | .local _ .vmem, ⟨17, _⟩ => ⟨S6000x96, .f32⟩
  | .local _ .vmem, ⟨18, _⟩ => ⟨S6000x96, .f32⟩
  | .local _ .vmem, ⟨19, _⟩ => ⟨S6000x96, .f32⟩
  | .local _ .vmem, ⟨20, _⟩ => ⟨S6000x96, .f32⟩
  | .local _ .vmem, ⟨21, _⟩ => ⟨S6000x96, .f32⟩
  | .local _ .vmem, ⟨22, _⟩ => ⟨S6000x96, .f32⟩
  | .local _ .vmem, ⟨23, _⟩ => ⟨S6000x96, .f32⟩
  | .local _ .vmem, ⟨24, _⟩ => ⟨S6000x96, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  inb_S2000x64_S2000x64_0_0 : ∀ a, (![0, 0] : Fin 2 → Nat) a + S2000x64.size a ≤ S2000x64.size a
  h_S2000x64 : 0 < S2000x64.numel
  concatenates_S2000x64_S2000x32_S2000x96_d1 : Shape.Concatenates [S2000x64, S2000x32] S2000x96 1
  inb_S2000x96_S2000x96_0_0 : ∀ a, (![0, 0] : Fin 2 → Nat) a + S2000x96.size a ≤ S2000x96.size a
  h_S2000x96 : 0 < S2000x96.numel
  concatenates_S100000x96_S50000x96_S150000x96_d0 : Shape.Concatenates [S100000x96, S50000x96] S150000x96 0
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S150000x96 : S_.BroadcastsInDim S150000x96 (![] : Fin 0 → Fin S150000x96.rank)
  inb_S6000x96_S6000x96_0_0 : ∀ a, (![0, 0] : Fin 2 → Nat) a + S6000x96.size a ≤ S6000x96.size a
  h_S6000x96 : 0 < S6000x96.numel
  shapeCasts_S6000x96_S6000x96 : S6000x96.ShapeCasts S6000x96
  slices_S150000x96_S100000x96_0_0 : S150000x96.Slices ![0, 0] S100000x96
  slices_S150000x96_S50000x96_100000_0 : S150000x96.Slices ![100000, 0] S50000x96
  dot_S2000x512_S32x512_S2000x32_1_1_0_0_n_n_wf : DotDims.WF S2000x512 S32x512 S2000x32 [1] [1] [0] [0] [] []
  gather_S150000x96_S800000x1_S800000x96_1_0_n_n_0_1_196_wf : GatherDims.WF S150000x96 S800000x1 S800000x96 [1] [0] [] [0] [] 1 ![1, 96]
  scatter_S150000x96_S800000x1_S800000x96_1_0_0_1_wf : ScatterDims.WF S150000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x96.size a ≤ S150000x96.size a
  hwx1_0 : ∀ i : grid1.Coords, EltTy.bits .f32 = 32 ∨ (Rect.block (s := S150000x96) S6000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x96.size a ≤ S150000x96.size a
  hwx1_1 : ∀ i : grid1.Coords, EltTy.bits .f32 = 32 ∨ (Rect.block (s := S150000x96) S6000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x96.size a ≤ S150000x96.size a
  hwx1_2 : ∀ i : grid1.Coords, EltTy.bits .f32 = 32 ∨ (Rect.block (s := S150000x96) S6000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x96.size a ≤ S150000x96.size a
  hwx2_0 : ∀ i : grid2.Coords, EltTy.bits .f32 = 32 ∨ (Rect.block (s := S150000x96) S6000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x96.size a ≤ S150000x96.size a
  hwx2_1 : ∀ i : grid2.Coords, EltTy.bits .f32 = 32 ∨ (Rect.block (s := S150000x96) S6000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x96.size a ≤ S150000x96.size a
  hwx2_2 : ∀ i : grid2.Coords, EltTy.bits .f32 = 32 ∨ (Rect.block (s := S150000x96) S6000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x96.size a ≤ S150000x96.size a
  hwx3_0 : ∀ i : grid3.Coords, EltTy.bits .f32 = 32 ∨ (Rect.block (s := S150000x96) S6000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x96.size a ≤ S150000x96.size a
  hwx3_1 : ∀ i : grid3.Coords, EltTy.bits .f32 = 32 ∨ (Rect.block (s := S150000x96) S6000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x96.size a ≤ S150000x96.size a
  hwx3_2 : ∀ i : grid3.Coords, EltTy.bits .f32 = 32 ∨ (Rect.block (s := S150000x96) S6000x96.size (cc3_transform_2 i) (hinb3_2 i)).WholeWords (EltTy.packing .f32)

variable [Facts₀]

def dot_S2000x512_S32x512_S2000x32_1_1_0_0_n_n : DotDims S2000x512 S32x512 S2000x32 where
  lhsContracting := [1]
  rhsContracting := [1]
  lhsNonContracting := [0]
  rhsNonContracting := [0]
  lhsBatch := []
  rhsBatch := []
  wf := dot_S2000x512_S32x512_S2000x32_1_1_0_0_n_n_wf
def gather_S150000x96_S800000x1_S800000x96_1_0_n_n_0_1_196 : GatherDims S150000x96 S800000x1 S800000x96 where
  offsetDims := [1]
  collapsedSliceDims := [0]
  operandBatchingDims := []
  startIndicesBatchingDims := []
  startIndexMap := [0]
  indexVectorDim := 1
  sliceSizes := ![1, 96]
  wf := gather_S150000x96_S800000x1_S800000x96_1_0_n_n_0_1_196_wf
def scatter_S150000x96_S800000x1_S800000x96_1_0_0_1 : ScatterDims S150000x96 S800000x1 S800000x96 where
  updateWindowDims := [1]
  insertedWindowDims := [0]
  scatterDimsToOperandDims := [0]
  indexVectorDim := 1
  wf := scatter_S150000x96_S800000x1_S800000x96_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S6000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S6000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S6000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S6000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S6000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S6000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S6000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S6000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S6000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S32x512 : Shape := ⟨2, ![32, 512]⟩
abbrev S100000x96 : Shape := ⟨2, ![100000, 96]⟩
abbrev S50000x64 : Shape := ⟨2, ![50000, 64]⟩
abbrev S800000 : Shape := ⟨1, ![800000]⟩
abbrev S512x32 : Shape := ⟨2, ![512, 32]⟩
abbrev S50000x32 : Shape := ⟨2, ![50000, 32]⟩
abbrev S50000x96 : Shape := ⟨2, ![50000, 96]⟩
abbrev S150000x96 : Shape := ⟨2, ![150000, 96]⟩
abbrev S800000x1 : Shape := ⟨2, ![800000, 1]⟩
abbrev S_ : Shape := ⟨0, ![]⟩
abbrev S800000x96 : Shape := ⟨2, ![800000, 96]⟩

abbrev nBuf : Space → Nat
  | .hbm => 64
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S32x512, .f32⟩
  | .hbm, ⟨2, _⟩ => ⟨S100000x96, .f32⟩
  | .hbm, ⟨3, _⟩ => ⟨S50000x64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S512x32, .f32⟩
  | .hbm, ⟨8, _⟩ => ⟨S50000x32, .f32⟩
  | .hbm, ⟨9, _⟩ => ⟨S50000x96, .f32⟩
  | .hbm, ⟨10, _⟩ => ⟨S150000x96, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S800000x96, .f32⟩
  | .hbm, ⟨22, _⟩ => ⟨S800000x96, .f32⟩
  | .hbm, ⟨23, _⟩ => ⟨S_, .f32⟩
  | .hbm, ⟨24, _⟩ => ⟨S150000x96, .f32⟩
  | .hbm, ⟨25, _⟩ => ⟨S800000x1, .i32⟩
  | .hbm, ⟨26, _⟩ => ⟨S150000x96, .f32⟩
  | .hbm, ⟨27, _⟩ => ⟨S150000x96, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x96, .f32⟩
  | .hbm, ⟨38, _⟩ => ⟨S800000x96, .f32⟩
  | .hbm, ⟨39, _⟩ => ⟨S800000x96, .f32⟩
  | .hbm, ⟨40, _⟩ => ⟨S_, .f32⟩
  | .hbm, ⟨41, _⟩ => ⟨S150000x96, .f32⟩
  | .hbm, ⟨42, _⟩ => ⟨S800000x1, .i32⟩
  | .hbm, ⟨43, _⟩ => ⟨S150000x96, .f32⟩
  | .hbm, ⟨44, _⟩ => ⟨S150000x96, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x96, .f32⟩
  | .hbm, ⟨55, _⟩ => ⟨S800000x96, .f32⟩
  | .hbm, ⟨56, _⟩ => ⟨S800000x96, .f32⟩
  | .hbm, ⟨57, _⟩ => ⟨S_, .f32⟩
  | .hbm, ⟨58, _⟩ => ⟨S150000x96, .f32⟩
  | .hbm, ⟨59, _⟩ => ⟨S800000x1, .i32⟩
  | .hbm, ⟨60, _⟩ => ⟨S150000x96, .f32⟩
  | .hbm, ⟨61, _⟩ => ⟨S150000x96, .f32⟩
  | .hbm, ⟨62, _⟩ => ⟨S100000x96, .f32⟩
  | .hbm, ⟨63, _⟩ => ⟨S50000x96, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  transposes_S32x512_S512x32_1_0 : S32x512.Transposes [1, 0] S512x32
  concatenates_S50000x64_S50000x32_S50000x96_d1 : Shape.Concatenates [S50000x64, S50000x32] S50000x96 1
  concatenates_S100000x96_S50000x96_S150000x96_d0 : Shape.Concatenates [S100000x96, S50000x96] S150000x96 0
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S150000x96 : S_.BroadcastsInDim S150000x96 (![] : Fin 0 → Fin S150000x96.rank)
  slices_S150000x96_S100000x96_0_0 : S150000x96.Slices ![0, 0] S100000x96
  slices_S150000x96_S50000x96_100000_0 : S150000x96.Slices ![100000, 0] S50000x96
  dot_S50000x512_S512x32_S50000x32_1_0_0_1_n_n_wf : DotDims.WF S50000x512 S512x32 S50000x32 [1] [0] [0] [1] [] []
  gather_S150000x96_S800000x1_S800000x96_1_0_n_n_0_1_196_wf : GatherDims.WF S150000x96 S800000x1 S800000x96 [1] [0] [] [0] [] 1 ![1, 96]
  scatter_S150000x96_S800000x1_S800000x96_1_0_0_1_wf : ScatterDims.WF S150000x96 S800000x1 S800000x96 [1] [0] [0] 1

variable [Facts₀]

def dot_S50000x512_S512x32_S50000x32_1_0_0_1_n_n : DotDims S50000x512 S512x32 S50000x32 where
  lhsContracting := [1]
  rhsContracting := [0]
  lhsNonContracting := [0]
  rhsNonContracting := [1]
  lhsBatch := []
  rhsBatch := []
  wf := dot_S50000x512_S512x32_S50000x32_1_0_0_1_n_n_wf
def gather_S150000x96_S800000x1_S800000x96_1_0_n_n_0_1_196 : GatherDims S150000x96 S800000x1 S800000x96 where
  offsetDims := [1]
  collapsedSliceDims := [0]
  operandBatchingDims := []
  startIndicesBatchingDims := []
  startIndexMap := [0]
  indexVectorDim := 1
  sliceSizes := ![1, 96]
  wf := gather_S150000x96_S800000x1_S800000x96_1_0_n_n_0_1_196_wf
def scatter_S150000x96_S800000x1_S800000x96_1_0_0_1 : ScatterDims S150000x96 S800000x1 S800000x96 where
  updateWindowDims := [1]
  insertedWindowDims := [0]
  scatterDimsToOperandDims := [0]
  indexVectorDim := 1
  wf := scatter_S150000x96_S800000x1_S800000x96_1_0_0_1_wf

class Facts : Prop extends Facts₀ where

variable [Facts]
-- ==== Proof.KernelRun.lean ====
/-
  The idealized kernel program's run with its two result buffers read.

  @main is four pipelined kernel launches among stretches of host operations.  The buffer contents at
  the eight boundaries between them form a chain `W0, W1, …, W8`: a launch replaces each of its arrays by
  what its write-backs leave and keeps every other buffer, a host stretch replaces each buffer it writes by
  the operation's value of its operands.  Every weakly fair execution terminates with EVERY unscoped buffer
  at the last link `W8`; read at the two result buffers and at the seven arguments, that is the statement
  below.  (The frame conjunct reads the same final state at the arguments only.)
-/
import proofs.«131003_j23244363006255_1_alg».proof.Proof.Gen.KernelIdeal.Frame

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last
    boundary's contents `W8` and the arguments as launched. -/
theorem run_values : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state, and nothing beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      -- each segment's exit state is the next one's entry state; the last is `Tₙ` beside the core owing nothing
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch memory is the first boundary's contents
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state holds every unscoped buffer at `W8`: read them all against the final state
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Walk

end
-- ==== Proof.Spec.lean ====
/-
  What both programs compute, as functions of the seven argument arrays.

  The item table is the given 64 latent columns joined, along the columns, with the 32 projected attribute
  columns `missing_attr · W_transᵀ`; the node table is the 100000 user rows above the 50000 item rows.
  One propagation layer adds to the node table `e` its aggregate over the edges: edge `k` carries
  `edge_vals k · e[cols k]` (a negative column index counted from the end, as jnp reads it) to row
  `rows k`, the contributions to a row summed from zero.  Three layers are applied, and the result is cut
  into its user rows and its item rows.  The definitions are stated over the reference program's shape
  names and dimension records; the kernel program's are the same literals.
-/
import proofs.«131003_j23244363006255_1_alg».proof.Proof.Gen.ReferenceIdeal

noncomputable section

namespace Cert.Spec

open Cert.ReferenceIdeal Cert.ReferenceIdeal.Gen Idealize.ShloMosaic

variable {F : FTy → Type} [FloatOps F]

/-- The projected attributes: `missing_attr` (50000 × 512) times the transpose of `W_trans` (32 × 512). -/
def attrs (x0 : (⟨S50000x512, .f32⟩ : BufTy).Contents (Elt F)) (x1 : (⟨S32x512, .f32⟩ : BufTy).Contents (Elt F)) :
    (⟨S50000x32, .f32⟩ : BufTy).Contents (Elt F) :=
  Host.dotGeneral dot_S50000x512_S512x32_S50000x32_1_0_0_1_n_n none x0 (transpose S512x32 [1, 0] x1 transposes_S32x512_S512x32_1_0)

/-- The item table: columns 0–63 the latent embedding, columns 64–95 the projected attributes. -/
def itemTable (x0 : (⟨S50000x512, .f32⟩ : BufTy).Contents (Elt F)) (x1 : (⟨S32x512, .f32⟩ : BufTy).Contents (Elt F))
    (x3 : (⟨S50000x64, .f32⟩ : BufTy).Contents (Elt F)) : (⟨S50000x96, .f32⟩ : BufTy).Contents (Elt F) :=
  concatenate S50000x96 1 [⟨S50000x64, x3⟩, ⟨S50000x32, attrs x0 x1⟩] concatenates_S50000x64_S50000x32_S50000x96_d1

/-- The node table: the user rows above the item rows. -/
def stack (x2 : (⟨S100000x96, .f32⟩ : BufTy).Contents (Elt F)) (it : (⟨S50000x96, .f32⟩ : BufTy).Contents (Elt F)) :
    (⟨S150000x96, .f32⟩ : BufTy).Contents (Elt F) :=
  concatenate S150000x96 0 [⟨S100000x96, x2⟩, ⟨S50000x96, it⟩] concatenates_S100000x96_S50000x96_S150000x96_d0

/-- A column index as jnp reads it: a negative one counts from the end of the 150000 rows. -/
def wrap (x6 : (⟨S800000, .i32⟩ : BufTy).Contents (Elt F)) : (⟨S800000, .i32⟩ : BufTy).Contents (Elt F) :=
  select (cmpi .slt x6 (broadcastInDim S800000 ![] bcast_S_S800000 (constantI S_ 32 0#32)))
    (addi x6 (broadcastInDim S800000 ![] bcast_S_S800000 (constantI S_ 32 150000#32))) x6

/-- The messages: edge `k`'s value times row `cols k` of the node table. -/
def messages (e : (⟨S150000x96, .f32⟩ : BufTy).Contents (Elt F)) (x4 : (⟨S800000, .f32⟩ : BufTy).Contents (Elt F))
    (x6 : (⟨S800000, .i32⟩ : BufTy).Contents (Elt F)) : (⟨S800000x96, .f32⟩ : BufTy).Contents (Elt F) :=
  mulf (broadcastInDim S800000x96 ![0, 1] bcast_S800000x1_S800000x96_0_1 (broadcastInDim S800000x1 ![0] bcast_S800000_S800000x1_0 x4))
    (Host.gather gather_S150000x96_S800000x1_S800000x96_1_0_n_n_0_1_196 e
      (broadcastInDim S800000x1 ![0] bcast_S800000_S800000x1_0 (wrap x6)))

/-- The aggregate: the messages summed, from zero, into the rows `rows k`. -/
def aggregate (e : (⟨S150000x96, .f32⟩ : BufTy).Contents (Elt F)) (x4 : (⟨S800000, .f32⟩ : BufTy).Contents (Elt F))
    (x5 x6 : (⟨S800000, .i32⟩ : BufTy).Contents (Elt F)) : (⟨S150000x96, .f32⟩ : BufTy).Contents (Elt F) :=
  Host.scatterAdd scatter_S150000x96_S800000x1_S800000x96_1_0_0_1
    (broadcastInDim S150000x96 ![] bcast_S_S150000x96 (constant S_ .f32 0x00000000#32))
    (broadcastInDim S800000x1 ![0] bcast_S800000_S800000x1_0 x5) (messages e x4 x6)

/-- One propagation layer: the node table plus its aggregate. -/
def layer (e : (⟨S150000x96, .f32⟩ : BufTy).Contents (Elt F)) (x4 : (⟨S800000, .f32⟩ : BufTy).Contents (Elt F))
    (x5 x6 : (⟨S800000, .i32⟩ : BufTy).Contents (Elt F)) : (⟨S150000x96, .f32⟩ : BufTy).Contents (Elt F) :=
  addf e (aggregate e x4 x5 x6)

/-- The node table after the three layers, from the item table `it`. -/
def propagated (x2 : (⟨S100000x96, .f32⟩ : BufTy).Contents (Elt F)) (it : (⟨S50000x96, .f32⟩ : BufTy).Contents (Elt F))
    (x4 : (⟨S800000, .f32⟩ : BufTy).Contents (Elt F)) (x5 x6 : (⟨S800000, .i32⟩ : BufTy).Contents (Elt F)) :
    (⟨S150000x96, .f32⟩ : BufTy).Contents (Elt F) :=
  layer (layer (layer (stack x2 it) x4 x5 x6) x4 x5 x6) x4 x5 x6

/-- The first result: the user rows. -/
def userRows (e : (⟨S150000x96, .f32⟩ : BufTy).Contents (Elt F)) : (⟨S100000x96, .f32⟩ : BufTy).Contents (Elt F) :=
  extractStridedSlice S100000x96 ![0, 0] e slices_S150000x96_S100000x96_0_0

/-- The second result: the item rows. -/
def itemRows (e : (⟨S150000x96, .f32⟩ : BufTy).Contents (Elt F)) : (⟨S50000x96, .f32⟩ : BufTy).Contents (Elt F) :=
  extractStridedSlice S50000x96 ![100000, 0] e slices_S150000x96_S50000x96_100000_0

end Cert.Spec

end
-- ==== Proof.ItemRegion.lean ====
/-
  Launch 0 of @main builds the item table.  Its grid is 25 points; point `t` stages rows
  `2000 t … 2000 t + 1999` of `missing_attr` (512 columns) and of the latent embedding (64 columns) and the
  whole of `W_trans` (32 × 512); the body multiplies the block of `missing_attr` by `W_trans`, contracting the
  512-axis of both, into a zero accumulator, joins the result to the right of the latent block and stores
  the 2000 × 96 block, which is written back to rows `2000 t …` of the output.

  On the extended reals the change of float format in front of the product is the identity and the product
  into zero is the plain sum `∑ₖ a[r,k] · w[c,k]`; the reference's `dot_general` against the transposed
  `W_trans` is the same sum.  So entry (r, q) of both is `item_emb[r,q]` for `q < 64` and
  `∑ₖ missing_attr[r,k] · W_trans[q-64,k]` otherwise: what point `t` writes back is block `t` of the
  specification's item table, and the 25 blocks cover the output array.
-/
import proofs.«131003_j23244363006255_1_alg».proof.Proof.Gen.KernelIdeal.Frame
import proofs.«131003_j23244363006255_1_alg».proof.Proof.Gen.ReferenceIdeal.Read
import proofs.«131003_j23244363006255_1_alg».proof.Proof.Spec
import Idealize.ShloMosaic.Lib.Pipeline.Value
import Idealize.ShloMosaic.Lib.ValueIdx
import Idealize.ShloMosaic.PureOps.Ideal.Laws

noncomputable section

namespace Cert.KernelIdeal.Items

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

theorem origin : (![0, 0] : Fin 2 → Nat) = fun _ => 0 := funext fun a => by fin_cases a <;> rfl

/-! ## The specification's item table at an entry -/

/-- Left of column 64 the item table is the latent embedding. -/
theorem itemTable_left (x0 : (⟨Cert.ReferenceIdeal.S50000x512, .f32⟩ : BufTy).Contents (Elt Ideal))
    (x1 : (⟨Cert.ReferenceIdeal.S32x512, .f32⟩ : BufTy).Contents (Elt Ideal))
    (x3 : (⟨Cert.ReferenceIdeal.S50000x64, .f32⟩ : BufTy).Contents (Elt Ideal))
    (r : Fin 50000) (q : Fin 96) (hq : q.val < 64) :
    Cert.Spec.itemTable x0 x1 x3 (ix2 r q) = x3 (ix2 r ⟨q.val, hq⟩) := by
  unfold Cert.Spec.itemTable
  exact concatenate_pair_apply_left 1 x3 _ _ (ix2 r q) rfl (ix2 r ⟨q.val, hq⟩) (fun b => match b with
    | ⟨0, _⟩ => rfl
    | ⟨1, _⟩ => rfl)

/-- From column 64 on it is the projection: row `r` of `missing_attr` against row `q - 64` of `W_trans`. -/
theorem itemTable_right (x0 : (⟨Cert.ReferenceIdeal.S50000x512, .f32⟩ : BufTy).Contents (Elt Ideal))
    (x1 : (⟨Cert.ReferenceIdeal.S32x512, .f32⟩ : BufTy).Contents (Elt Ideal))
    (x3 : (⟨Cert.ReferenceIdeal.S50000x64, .f32⟩ : BufTy).Contents (Elt Ideal))
    (r : Fin 50000) (q : Fin 96) (hq : 64 ≤ q.val) :
    Cert.Spec.itemTable x0 x1 x3 (ix2 r q)
      = ∑ k : Fin 512, x0 (ix2 r k) * x1 (ix2 (⟨q.val - 64, by have := q.isLt; omega⟩ : Fin 32) k) := by
  unfold Cert.Spec.itemTable
  refine (concatenate_pair_apply_right 1 x3 (Cert.Spec.attrs x0 x1) _ (ix2 r q) rfl rfl
    (ix2 r (⟨q.val - 64, by have := q.isLt; omega⟩ : Fin 32)) (fun b hb => match b, hb with
      | ⟨0, _⟩, _ => rfl
      | ⟨1, _⟩, hb => absurd rfl hb) (by show q.val - 64 + 64 = q.val; omega)).trans ?_
  refine (Cert.ReferenceIdeal.Read.val_main_v1_apply x0 x1 _).trans ?_
  refine Finset.sum_congr rfl fun k _ => ?_
  rw [Cert.ReferenceIdeal.Read.val_main_v0_apply]
  have el : Cert.ReferenceIdeal.Read.lidx_main_v1 (ix2 r (⟨q.val - 64, by have := q.isLt; omega⟩ : Fin 32)) k = ix2 r k :=
    funext fun b => Fin.ext (by match b with | ⟨0, _⟩ => rfl | ⟨1, _⟩ => rfl)
  have er : Cert.ReferenceIdeal.Read.idx_main_v0 (Cert.ReferenceIdeal.Read.ridx_main_v1 (ix2 r (⟨q.val - 64, by have := q.isLt; omega⟩ : Fin 32)) k)
      = ix2 (⟨q.val - 64, by have := q.isLt; omega⟩ : Fin 32) k :=
    funext fun b => Fin.ext (by match b with | ⟨0, _⟩ => rfl | ⟨1, _⟩ => rfl)
  rw [el, er]

/-! ## The body's stored block at an entry -/

theorem lhs0 (i : S2000x32.Idx) (κ : dot_S2000x512_S32x512_S2000x32_1_1_0_0_n_n.contr.Idx) : (dot_S2000x512_S32x512_S2000x32_1_1_0_0_n_n.lhsIdx i κ 0).val = (i 0).val := by
  unfold DotDims.lhsIdx
  rw [dif_neg (show ¬(0 : Fin S2000x512.rank) ∈ dot_S2000x512_S32x512_S2000x32_1_1_0_0_n_n.lhsBatch by decide), dif_pos (show (0 : Fin S2000x512.rank) ∈ dot_S2000x512_S32x512_S2000x32_1_1_0_0_n_n.lhsNonContracting by decide)]
  rfl
theorem lhs1 (i : S2000x32.Idx) (κ : dot_S2000x512_S32x512_S2000x32_1_1_0_0_n_n.contr.Idx) : (dot_S2000x512_S32x512_S2000x32_1_1_0_0_n_n.lhsIdx i κ 1).val = (κ ⟨0, by decide⟩).val :=
  dot_S2000x512_S32x512_S2000x32_1_1_0_0_n_n.lhsIdx_val_of_single rfl i κ
theorem rhs0 (i : S2000x32.Idx) (κ : dot_S2000x512_S32x512_S2000x32_1_1_0_0_n_n.contr.Idx) : (dot_S2000x512_S32x512_S2000x32_1_1_0_0_n_n.rhsIdx i κ 0).val = (i 1).val := by
  unfold DotDims.rhsIdx
  rw [dif_neg (show ¬(0 : Fin S32x512.rank) ∈ dot_S2000x512_S32x512_S2000x32_1_1_0_0_n_n.rhsBatch by decide), dif_pos (show (0 : Fin S32x512.rank) ∈ dot_S2000x512_S32x512_S2000x32_1_1_0_0_n_n.rhsNonContracting by decide)]
  rfl
theorem rhs1 (i : S2000x32.Idx) (κ : dot_S2000x512_S32x512_S2000x32_1_1_0_0_n_n.contr.Idx) : (dot_S2000x512_S32x512_S2000x32_1_1_0_0_n_n.rhsIdx i κ 1).val = (κ ⟨0, by decide⟩).val :=
  dot_S2000x512_S32x512_S2000x32_1_1_0_0_n_n.rhsIdx_val_of_single rfl i κ

/-- The body's product, contracting the 512-axis of both operands, into the zero accumulator: entry (p, q) is
    the sum over `k` of `a[p,k] · w[q,k]`. -/
theorem product_entry (a : FVec Ideal S2000x512 .bf16) (w : FVec Ideal S32x512 .bf16) (p : Fin 2000) (q : Fin 32) :
    matmul (F := Ideal) dot_S2000x512_S32x512_S2000x32_1_1_0_0_n_n none a w (constant (F := Ideal) S2000x32 .f32 0x00000000#32) (ix2 p q)
      = ∑ k : Fin 512, a (ix2 p k) * w (ix2 q k) := by
  refine (Ideal.matmul_constant_zero_apply dot_S2000x512_S32x512_S2000x32_1_1_0_0_n_n none a w (ix2 p q)).trans ?_
  rw [← Equiv.sum_comp (ValueIdx.contrEquiv1 dot_S2000x512_S32x512_S2000x32_1_1_0_0_n_n 512 rfl rfl).symm]
  refine Finset.sum_congr rfl fun k _ => ?_
  have hk := ValueIdx.contrEquiv1_symm_val dot_S2000x512_S32x512_S2000x32_1_1_0_0_n_n 512 rfl rfl k
  have el : dot_S2000x512_S32x512_S2000x32_1_1_0_0_n_n.lhsIdx (ix2 p q) ((ValueIdx.contrEquiv1 dot_S2000x512_S32x512_S2000x32_1_1_0_0_n_n 512 rfl rfl).symm k) = ix2 p k := funext fun b => Fin.ext (by
    match b with
    | ⟨0, _⟩ => exact lhs0 _ _
    | ⟨1, _⟩ => exact (lhs1 _ _).trans hk)
  have er : dot_S2000x512_S32x512_S2000x32_1_1_0_0_n_n.rhsIdx (ix2 p q) ((ValueIdx.contrEquiv1 dot_S2000x512_S32x512_S2000x32_1_1_0_0_n_n 512 rfl rfl).symm k) = ix2 q k := funext fun b => Fin.ext (by
    match b with
    | ⟨0, _⟩ => exact rhs0 _ _
    | ⟨1, _⟩ => exact (rhs1 _ _).trans hk)
  rw [el, er]

/-- Left of column 64 the stored block is the loaded latent block. -/
theorem stored_left (v0 : Vec Ideal S2000x512 .f32) (v2 : Vec Ideal S32x512 .f32) (v5 : Vec Ideal S2000x64 .f32)
    (p : Fin 2000) (q : Fin 96) (hq : q.val < 64) :
    k0_pay1 v0 v2 v5 (ix2 p q) = v5 (ix2 p ⟨q.val, hq⟩) := by
  unfold k0_pay1
  exact concatenate_pair_apply_left 1 v5 _ _ (ix2 p q) rfl (ix2 p ⟨q.val, hq⟩) (fun b => match b with
    | ⟨0, _⟩ => rfl
    | ⟨1, _⟩ => rfl)

/-- From column 64 on it is the product of the loaded blocks (the format change in front of it is the identity
    on the extended reals). -/
theorem stored_right (v0 : Vec Ideal S2000x512 .f32) (v2 : Vec Ideal S32x512 .f32) (v5 : Vec Ideal S2000x64 .f32)
    (p : Fin 2000) (q : Fin 96) (hq : 64 ≤ q.val) :
    k0_pay1 v0 v2 v5 (ix2 p q)
      = ∑ k : Fin 512, v0 (ix2 p k) * v2 (ix2 (⟨q.val - 64, by have := q.isLt; omega⟩ : Fin 32) k) := by
  unfold k0_pay1
  refine (concatenate_pair_apply_right (t := S2000x96) (s₁ := S2000x64) (s₂ := S2000x32) 1 v5 _ _ (ix2 p q) rfl rfl
    (ix2 p (⟨q.val - 64, by have := q.isLt; omega⟩ : Fin 32)) (fun b hb => match b, hb with
      | ⟨0, _⟩, _ => rfl
      | ⟨1, _⟩, hb => absurd rfl hb) (by show q.val - 64 + 64 = q.val; omega)).trans ?_
  exact product_entry _ _ p _

/-- A stored block whose loaded blocks are rows `2000 T …` of the arrays is that block of the item table. -/
theorem block_entry (x0 : (⟨Cert.ReferenceIdeal.S50000x512, .f32⟩ : BufTy).Contents (Elt Ideal))
    (x1 : (⟨Cert.ReferenceIdeal.S32x512, .f32⟩ : BufTy).Contents (Elt Ideal))
    (x3 : (⟨Cert.ReferenceIdeal.S50000x64, .f32⟩ : BufTy).Contents (Elt Ideal))
    (v0 : Vec Ideal S2000x512 .f32) (v2 : Vec Ideal S32x512 .f32) (v5 : Vec Ideal S2000x64 .f32)
    (T : Nat) (hT : T < 25)
    (h0 : ∀ (p : Fin 2000) (k : Fin 512), v0 (ix2 p k) = x0 (ix2 (⟨2000 * T + p.val, by have := p.isLt; omega⟩ : Fin 50000) k))
    (h2 : ∀ (q : Fin 32) (k : Fin 512), v2 (ix2 q k) = x1 (ix2 q k))
    (h5 : ∀ (p : Fin 2000) (q : Fin 64), v5 (ix2 p q) = x3 (ix2 (⟨2000 * T + p.val, by have := p.isLt; omega⟩ : Fin 50000) q))
    (p : Fin 2000) (q : Fin 96) :
    k0_pay1 v0 v2 v5 (ix2 p q)
      = Cert.Spec.itemTable x0 x1 x3 (ix2 (⟨2000 * T + p.val, by have := p.isLt; omega⟩ : Fin 50000) q) := by
  by_cases hq : q.val < 64
  · rw [stored_left v0 v2 v5 p q hq, itemTable_left x0 x1 x3 _ q hq, h5]
  · have hq' : 64 ≤ q.val := by omega
    rw [stored_right v0 v2 v5 p q hq', itemTable_right x0 x1 x3 _ q hq']
    refine Finset.sum_congr rfl fun k _ => ?_
    rw [h0, h2]

/-! ## From the blocks to the array -/

variable (V : (c : Dev nD) → (b : Ref sig .tc) → Buf (Elt Ideal) ((c : Thread nD τ).loc b))

/-- The four index maps, decided over the 25 points: the two row-blocked inputs and the output are at block
    row `t`, block column 0; `W_trans` is always at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the item table of the arrays as the launch finds them. -/
theorem written_eq (c : Dev nD) (t : Fin cfg0.N) :
    (dat0 V c).flushed 3 t = ((cfg0.win 3).blk t).view.read (Elt Ideal)
      (Cert.Spec.itemTable (V c main_arg0) (V c main_arg1) (V c main_arg3)) := by
  show (cfg0.win 3).cut (grid0.coords t) ((dat0 V c).after 3 t) = _
  rw [after0_3]
  unfold out0_3
  rw [View.canon_unit_zero origin]
  simp only [View.ld_unit_zero (S := S2000x512) origin, View.ld_unit_zero (S := S32x512) origin, View.ld_unit_zero (S := S2000x64) origin]
  obtain ⟨e0, e1, e2, e3, e4, e5, e6, e7⟩ := index_facts t
  have hN : cfg0.N = 25 := N_0
  have ht : t.val < 25 := hN ▸ t.isLt
  funext j
  obtain ⟨p, q, rfl⟩ : ∃ (p : Fin 2000) (q : Fin 96), j = ix2 p q := ⟨j 0, j 1, eq_ix2 j⟩
  show k0_pay1 (iblk0 V c 0 t) (iblk0 V c 1 t) (iblk0 V c 2 t) (ix2 p q)
    = Cert.Spec.itemTable (V c main_arg0) (V c main_arg1) (V c main_arg3) (((cfg0.win 3).blk t).view.emb (ix2 p q))
  have hemb : ((cfg0.win 3).blk t).view.emb (ix2 p q) = ix2 (⟨2000 * t.val + p.val, by have := p.isLt; omega⟩ : Fin 50000) q := by
    funext a; apply Fin.ext
    match a with
    | ⟨0, _⟩ => show win0_3.index t (0 : Fin 2) * 2000 + 1 * p.val = 2000 * t.val + p.val; omega
    | ⟨1, _⟩ => show win0_3.index t (1 : Fin 2) * 96 + 1 * q.val = q.val; omega
  rw [hemb]
  refine block_entry (V c main_arg0) (V c main_arg1) (V c main_arg3) (iblk0 V c 0 t) (iblk0 V c 1 t) (iblk0 V c 2 t) t.val ht ?_ ?_ ?_ p q
  · intro p k
    show V c main_arg0 (((cfg0.win 0).blk t).view.emb (ix2 p k)) = _
    refine congrArg _ ?_
    funext a; apply Fin.ext
    match a with
    | ⟨0, _⟩ => show win0_0.index t (0 : Fin 2) * 2000 + 1 * p.val = 2000 * t.val + p.val; omega
    | ⟨1, _⟩ => show win0_0.index t (1 : Fin 2) * 512 + 1 * k.val = k.val; omega
  · intro q k
    show V c main_arg1 (((cfg0.win 1).blk t).view.emb (ix2 q k)) = _
    refine congrArg _ ?_
    funext a; apply Fin.ext
    match a with
    | ⟨0, _⟩ => show win0_1.index t (0 : Fin 2) * 32 + 1 * q.val = q.val; omega
    | ⟨1, _⟩ => show win0_1.index t (1 : Fin 2) * 512 + 1 * k.val = k.val; omega
  · intro p q
    show V c main_arg3 (((cfg0.win 2).blk t).view.emb (ix2 p q)) = _
    refine congrArg _ ?_
    funext a; apply Fin.ext
    match a with
    | ⟨0, _⟩ => show win0_2.index t (0 : Fin 2) * 2000 + 1 * p.val = 2000 * t.val + p.val; omega
    | ⟨1, _⟩ => show win0_2.index t (1 : Fin 2) * 64 + 1 * q.val = q.val; omega

/-- An index of the output array is in point `t`'s block iff each coordinate is in the block's range. -/
theorem mem_block (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v0).slice (win0_3.rect t)).set ↔ _
  rw [View.set_slice_whole, Rect.mem_set_unit]
  exact Iff.rfl

/-- Row `r` of the output array is in the block of point `r / 2000`. -/
theorem covered (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 25 := N_0
  have hlt : (i 0).val / 2000 < cfg0.N := by rw [hN]; omega
  obtain ⟨_, _, _, _, _, _, q0, q1⟩ := index_facts ⟨(i 0).val / 2000, hlt⟩
  refine ⟨⟨(i 0).val / 2000, hlt⟩, flush0_3 _, ?_⟩
  rw [mem_block]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [q0]; show (i 0).val / 2000 * 2000 ≤ (i 0).val ∧ (i 0).val < (i 0).val / 2000 * 2000 + 2000; omega
  | ⟨1, _⟩ =>
    show win0_3.index ⟨(i 0).val / 2000, hlt⟩ (1 : Fin 2) * 96 ≤ (i 1).val ∧ (i 1).val < win0_3.index ⟨(i 0).val / 2000, hlt⟩ (1 : Fin 2) * 96 + 96
    rw [q1]; omega

/-- After the launch the output array is the item table of the arrays as the launch found them. -/
theorem result (c : Dev nD) :
    (dat0 V c).arrAt 3 cfg0.N = Cert.Spec.itemTable (V c main_arg0) (V c main_arg1) (V c main_arg3) :=
  (dat0 V c).arrAt_eq_of_cover 3 _ (fun t _ => written_eq V c t) covered

end Cert.KernelIdeal.Items

end
-- ==== Proof.Sum1.lean ====
/-
  Launch 1 of @main is the elementwise sum of two node tables.  Its grid is 25 points; point `t` stages
  rows `6000 t … 6000 t + 5999` of each of the three 150000 × 96 arrays, the body stores the sum of the two
  loaded blocks, and the block is written back.  So what point `t` writes back is block `t` of ONE
  whole-array function — the elementwise sum of the two arrays as the launch finds them — and the 25 blocks
  cover the array: after the launch the output array is that sum.
-/
import proofs.«131003_j23244363006255_1_alg».proof.Proof.Gen.KernelIdeal.Frame
import Idealize.ShloMosaic.Lib.Pipeline.Value

noncomputable section

namespace Cert.KernelIdeal.Sum1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The elementwise sum of two node tables. -/
abbrev tableSum (a0 a1 : S150000x96.Idx → Elt F .f32) : S150000x96.Idx → Elt F .f32 := fun i => FloatOps.addf (a0 i) (a1 i)

/-- The body's stored value is the sum of its two loaded blocks (the two casts are to the blocks' own shape). -/
theorem stored_eq (x0 x1 : Vec F S6000x96 .f32) : k1_pay1 x0 x1 = addf x0 x1 := by
  unfold k1_pay1
  rw [shapeCast_self, shapeCast_self]

/-- The three index maps, decided over the 25 points: all three windows are at block row `t`, block column 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the sum of the two arrays as the launch finds them. -/
theorem written_eq (c : Dev nD) (t : Fin cfg1.N) :
    (dat1 V c).flushed 2 t = ((cfg1.win 2).blk t).view.read (Elt F) (tableSum (V c main_v1) (V c main_v14)) := by
  show (cfg1.win 2).cut (grid1.coords t) ((dat1 V c).after 2 t) = _
  rw [after1_2]
  unfold out1_2
  rw [View.canon_unit_zero origin]
  simp only [View.ld_unit_zero (S := S6000x96) origin]
  rw [stored_eq]
  obtain ⟨e0, e1, e2, e3, e4, e5⟩ := index_facts t
  funext j
  show FloatOps.addf (V c main_v1 (((cfg1.win 0).blk t).view.emb j)) (V c main_v14 (((cfg1.win 1).blk t).view.emb j))
    = FloatOps.addf (V c main_v1 (((cfg1.win 2).blk t).view.emb j)) (V c main_v14 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 96 + 1 * (j 1).val = win1_2.index t (1 : Fin 2) * 96 + 1 * (j 1).val; omega
  have h1 : ((cfg1.win 1).blk t).view.emb j = ((cfg1.win 2).blk t).view.emb j := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 96 + 1 * (j 1).val = win1_2.index t (1 : Fin 2) * 96 + 1 * (j 1).val; omega
  rw [h0, h1]

/-- An index of the output array is in point `t`'s block iff each coordinate is in the block's range. -/
theorem mem_block (t : Fin cfg1.N) (i : S150000x96.Idx) :
    i ∈ ((cfg1.win 2).blk t).view.set ↔ ∀ a : Fin 2, win1_2.index t a * S6000x96.size a ≤ (i a).val ∧ (i a).val < win1_2.index t a * S6000x96.size a + S6000x96.size a := by
  show i ∈ ((View.whole main_v15).slice (win1_2.rect t)).set ↔ _
  rw [View.set_slice_whole, Rect.mem_set_unit]
  exact Iff.rfl

/-- Row `r` of the output array is in the block of point `r / 6000`. -/
theorem covered (i : S150000x96.Idx) :
    ∃ t : Fin cfg1.N, (cfg1.win 2).flush t = true ∧ i ∈ ((cfg1.win 2).blk t).view.set := by
  have hi0 : (i 0).val < 150000 := (i 0).isLt
  have hi1 : (i 1).val < 96 := (i 1).isLt
  have hN : cfg1.N = 25 := N_1
  have hlt : (i 0).val / 6000 < cfg1.N := by rw [hN]; omega
  obtain ⟨_, _, _, _, q0, q1⟩ := index_facts ⟨(i 0).val / 6000, hlt⟩
  refine ⟨⟨(i 0).val / 6000, hlt⟩, flush1_2 _, ?_⟩
  rw [mem_block]
  intro a
  match a with
  | ⟨0, _⟩ =>
    show win1_2.index ⟨(i 0).val / 6000, hlt⟩ (0 : Fin 2) * 6000 ≤ (i 0).val ∧ (i 0).val < win1_2.index ⟨(i 0).val / 6000, hlt⟩ (0 : Fin 2) * 6000 + 6000
    rw [q0]; show (i 0).val / 6000 * 6000 ≤ (i 0).val ∧ (i 0).val < (i 0).val / 6000 * 6000 + 6000; omega
  | ⟨1, _⟩ =>
    show win1_2.index ⟨(i 0).val / 6000, hlt⟩ (1 : Fin 2) * 96 ≤ (i 1).val ∧ (i 1).val < win1_2.index ⟨(i 0).val / 6000, hlt⟩ (1 : Fin 2) * 96 + 96
    rw [q1]; omega

/-- After the launch the output array is the sum of the two arrays as the launch found them. -/
theorem result (c : Dev nD) : (dat1 V c).arrAt 2 cfg1.N = tableSum (V c main_v1) (V c main_v14) :=
  (dat1 V c).arrAt_eq_of_cover 2 _ (fun t _ => written_eq V c t) covered

end Cert.KernelIdeal.Sum1

end
-- ==== Proof.Sum2.lean ====
/-
  Launch 2 of @main is the elementwise sum of two node tables.  Its grid is 25 points; point `t` stages
  rows `6000 t … 6000 t + 5999` of each of the three 150000 × 96 arrays, the body stores the sum of the two
  loaded blocks, and the block is written back.  So what point `t` writes back is block `t` of ONE
  whole-array function — the elementwise sum of the two arrays as the launch finds them — and the 25 blocks
  cover the array: after the launch the output array is that sum.
-/
import proofs.«131003_j23244363006255_1_alg».proof.Proof.Gen.KernelIdeal.Frame
import Idealize.ShloMosaic.Lib.Pipeline.Value

noncomputable section

namespace Cert.KernelIdeal.Sum2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The elementwise sum of two node tables. -/
abbrev tableSum (a0 a1 : S150000x96.Idx → Elt F .f32) : S150000x96.Idx → Elt F .f32 := fun i => FloatOps.addf (a0 i) (a1 i)

/-- The body's stored value is the sum of its two loaded blocks (the two casts are to the blocks' own shape). -/
theorem stored_eq (x0 x1 : Vec F S6000x96 .f32) : k2_pay1 x0 x1 = addf x0 x1 := by
  unfold k2_pay1
  rw [shapeCast_self, shapeCast_self]

/-- The three index maps, decided over the 25 points: all three windows are at block row `t`, block column 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the sum of the two arrays as the launch finds them. -/
theorem written_eq (c : Dev nD) (t : Fin cfg2.N) :
    (dat2 V c).flushed 2 t = ((cfg2.win 2).blk t).view.read (Elt F) (tableSum (V c main_v15) (V c main_v28)) := by
  show (cfg2.win 2).cut (grid2.coords t) ((dat2 V c).after 2 t) = _
  rw [after2_2]
  unfold out2_2
  rw [View.canon_unit_zero origin]
  simp only [View.ld_unit_zero (S := S6000x96) origin]
  rw [stored_eq]
  obtain ⟨e0, e1, e2, e3, e4, e5⟩ := index_facts t
  funext j
  show FloatOps.addf (V c main_v15 (((cfg2.win 0).blk t).view.emb j)) (V c main_v28 (((cfg2.win 1).blk t).view.emb j))
    = FloatOps.addf (V c main_v15 (((cfg2.win 2).blk t).view.emb j)) (V c main_v28 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 96 + 1 * (j 1).val = win2_2.index t (1 : Fin 2) * 96 + 1 * (j 1).val; omega
  have h1 : ((cfg2.win 1).blk t).view.emb j = ((cfg2.win 2).blk t).view.emb j := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 96 + 1 * (j 1).val = win2_2.index t (1 : Fin 2) * 96 + 1 * (j 1).val; omega
  rw [h0, h1]

/-- An index of the output array is in point `t`'s block iff each coordinate is in the block's range. -/
theorem mem_block (t : Fin cfg2.N) (i : S150000x96.Idx) :
    i ∈ ((cfg2.win 2).blk t).view.set ↔ ∀ a : Fin 2, win2_2.index t a * S6000x96.size a ≤ (i a).val ∧ (i a).val < win2_2.index t a * S6000x96.size a + S6000x96.size a := by
  show i ∈ ((View.whole main_v29).slice (win2_2.rect t)).set ↔ _
  rw [View.set_slice_whole, Rect.mem_set_unit]
  exact Iff.rfl

/-- Row `r` of the output array is in the block of point `r / 6000`. -/
theorem covered (i : S150000x96.Idx) :
    ∃ t : Fin cfg2.N, (cfg2.win 2).flush t = true ∧ i ∈ ((cfg2.win 2).blk t).view.set := by
  have hi0 : (i 0).val < 150000 := (i 0).isLt
  have hi1 : (i 1).val < 96 := (i 1).isLt
  have hN : cfg2.N = 25 := N_2
  have hlt : (i 0).val / 6000 < cfg2.N := by rw [hN]; omega
  obtain ⟨_, _, _, _, q0, q1⟩ := index_facts ⟨(i 0).val / 6000, hlt⟩
  refine ⟨⟨(i 0).val / 6000, hlt⟩, flush2_2 _, ?_⟩
  rw [mem_block]
  intro a
  match a with
  | ⟨0, _⟩ =>
    show win2_2.index ⟨(i 0).val / 6000, hlt⟩ (0 : Fin 2) * 6000 ≤ (i 0).val ∧ (i 0).val < win2_2.index ⟨(i 0).val / 6000, hlt⟩ (0 : Fin 2) * 6000 + 6000
    rw [q0]; show (i 0).val / 6000 * 6000 ≤ (i 0).val ∧ (i 0).val < (i 0).val / 6000 * 6000 + 6000; omega
  | ⟨1, _⟩ =>
    show win2_2.index ⟨(i 0).val / 6000, hlt⟩ (1 : Fin 2) * 96 ≤ (i 1).val ∧ (i 1).val < win2_2.index ⟨(i 0).val / 6000, hlt⟩ (1 : Fin 2) * 96 + 96
    rw [q1]; omega

/-- After the launch the output array is the sum of the two arrays as the launch found them. -/
theorem result (c : Dev nD) : (dat2 V c).arrAt 2 cfg2.N = tableSum (V c main_v15) (V c main_v28) :=
  (dat2 V c).arrAt_eq_of_cover 2 _ (fun t _ => written_eq V c t) covered

end Cert.KernelIdeal.Sum2

end
-- ==== Proof.Sum3.lean ====
/-
  Launch 3 of @main is the elementwise sum of two node tables.  Its grid is 25 points; point `t` stages
  rows `6000 t … 6000 t + 5999` of each of the three 150000 × 96 arrays, the body stores the sum of the two
  loaded blocks, and the block is written back.  So what point `t` writes back is block `t` of ONE
  whole-array function — the elementwise sum of the two arrays as the launch finds them — and the 25 blocks
  cover the array: after the launch the output array is that sum.
-/
import proofs.«131003_j23244363006255_1_alg».proof.Proof.Gen.KernelIdeal.Frame
import Idealize.ShloMosaic.Lib.Pipeline.Value

noncomputable section

namespace Cert.KernelIdeal.Sum3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The elementwise sum of two node tables. -/
abbrev tableSum (a0 a1 : S150000x96.Idx → Elt F .f32) : S150000x96.Idx → Elt F .f32 := fun i => FloatOps.addf (a0 i) (a1 i)

/-- The body's stored value is the sum of its two loaded blocks (the two casts are to the blocks' own shape). -/
theorem stored_eq (x0 x1 : Vec F S6000x96 .f32) : k3_pay1 x0 x1 = addf x0 x1 := by
  unfold k3_pay1
  rw [shapeCast_self, shapeCast_self]

/-- The three index maps, decided over the 25 points: all three windows are at block row `t`, block column 0. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the sum of the two arrays as the launch finds them. -/
theorem written_eq (c : Dev nD) (t : Fin cfg3.N) :
    (dat3 V c).flushed 2 t = ((cfg3.win 2).blk t).view.read (Elt F) (tableSum (V c main_v29) (V c main_v42)) := by
  show (cfg3.win 2).cut (grid3.coords t) ((dat3 V c).after 2 t) = _
  rw [after3_2]
  unfold out3_2
  rw [View.canon_unit_zero origin]
  simp only [View.ld_unit_zero (S := S6000x96) origin]
  rw [stored_eq]
  obtain ⟨e0, e1, e2, e3, e4, e5⟩ := index_facts t
  funext j
  show FloatOps.addf (V c main_v29 (((cfg3.win 0).blk t).view.emb j)) (V c main_v42 (((cfg3.win 1).blk t).view.emb j))
    = FloatOps.addf (V c main_v29 (((cfg3.win 2).blk t).view.emb j)) (V c main_v42 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 6000 + 1 * (j 0).val = win3_2.index t (0 : Fin 2) * 6000 + 1 * (j 0).val; omega
    | ⟨1, _⟩ => show win3_0.index t (1 : Fin 2) * 96 + 1 * (j 1).val = win3_2.index t (1 : Fin 2) * 96 + 1 * (j 1).val; omega
  have h1 : ((cfg3.win 1).blk t).view.emb j = ((cfg3.win 2).blk t).view.emb j := by
    funext a; apply Fin.ext
    match a with
    | ⟨0, _⟩ => show win3_1.index t (0 : Fin 2) * 6000 + 1 * (j 0).val = win3_2.index t (0 : Fin 2) * 6000 + 1 * (j 0).val; omega
    | ⟨1, _⟩ => show win3_1.index t (1 : Fin 2) * 96 + 1 * (j 1).val = win3_2.index t (1 : Fin 2) * 96 + 1 * (j 1).val; omega
  rw [h0, h1]

/-- An index of the output array is in point `t`'s block iff each coordinate is in the block's range. -/
theorem mem_block (t : Fin cfg3.N) (i : S150000x96.Idx) :
    i ∈ ((cfg3.win 2).blk t).view.set ↔ ∀ a : Fin 2, win3_2.index t a * S6000x96.size a ≤ (i a).val ∧ (i a).val < win3_2.index t a * S6000x96.size a + S6000x96.size a := by
  show i ∈ ((View.whole main_v43).slice (win3_2.rect t)).set ↔ _
  rw [View.set_slice_whole, Rect.mem_set_unit]
  exact Iff.rfl

/-- Row `r` of the output array is in the block of point `r / 6000`. -/
theorem covered (i : S150000x96.Idx) :
    ∃ t : Fin cfg3.N, (cfg3.win 2).flush t = true ∧ i ∈ ((cfg3.win 2).blk t).view.set := by
  have hi0 : (i 0).val < 150000 := (i 0).isLt
  have hi1 : (i 1).val < 96 := (i 1).isLt
  have hN : cfg3.N = 25 := N_3
  have hlt : (i 0).val / 6000 < cfg3.N := by rw [hN]; omega
  obtain ⟨_, _, _, _, q0, q1⟩ := index_facts ⟨(i 0).val / 6000, hlt⟩
  refine ⟨⟨(i 0).val / 6000, hlt⟩, flush3_2 _, ?_⟩
  rw [mem_block]
  intro a
  match a with
  | ⟨0, _⟩ =>
    show win3_2.index ⟨(i 0).val / 6000, hlt⟩ (0 : Fin 2) * 6000 ≤ (i 0).val ∧ (i 0).val < win3_2.index ⟨(i 0).val / 6000, hlt⟩ (0 : Fin 2) * 6000 + 6000
    rw [q0]; show (i 0).val / 6000 * 6000 ≤ (i 0).val ∧ (i 0).val < (i 0).val / 6000 * 6000 + 6000; omega
  | ⟨1, _⟩ =>
    show win3_2.index ⟨(i 0).val / 6000, hlt⟩ (1 : Fin 2) * 96 ≤ (i 1).val ∧ (i 1).val < win3_2.index ⟨(i 0).val / 6000, hlt⟩ (1 : Fin 2) * 96 + 96
    rw [q1]; omega

/-- After the launch the output array is the sum of the two arrays as the launch found them. -/
theorem result (c : Dev nD) : (dat3 V c).arrAt 2 cfg3.N = tableSum (V c main_v29) (V c main_v42) :=
  (dat3 V c).arrAt_eq_of_cover 2 _ (fun t _ => written_eq V c t) covered

end Cert.KernelIdeal.Sum3

end
-- ==== Proof.Stretches.lean ====
/-
  The host operations between the kernel launches, read as functions of the buffers they find.

  After each launch but the last the same seventeen-odd operations run: the edge values broadcast to a
  column, the column indices wrapped and broadcast to a column, the gather of the node table's rows, the
  product with the edge values, the zero table, the row indices broadcast to a column, the scatter-add.
  Whatever the buffers hold when a stretch starts (`Wv`), it leaves in its last buffer the specification's
  `aggregate` of the node table, the edge values and the two index arrays, and it writes neither the node
  table nor an argument.  The first stretch also joins the user rows and the item rows into the node table;
  the last stretch cuts the propagated table into its two results.  The kernel program's shape names and
  dimension records are the same literals as the reference program's, over which the specification is stated.
-/
import proofs.«131003_j23244363006255_1_alg».proof.Proof.Gen.KernelIdeal.Launch
import proofs.«131003_j23244363006255_1_alg».proof.Proof.Spec
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (Wv : Valuation τ sig (Elt F))

/-! ## The host operations after launch 0 -/

set_option maxHeartbeats 2000000 in
/-- They leave in `main_v14` the aggregate of the node table `main_v1` holds. -/
theorem after1_aggregate : StableHlo.after hostOps1 Wv (Proc.devRef .tc main_v14)
    = Cert.Spec.aggregate (Cert.Spec.stack (Wv (Proc.devRef .tc main_arg2)) (Wv (Proc.devRef .tc main_v0)))
        (Wv (Proc.devRef .tc main_arg4)) (Wv (Proc.devRef .tc main_arg5)) (Wv (Proc.devRef .tc main_arg6)) := by
  dsimp only [hostOps1]
  after_results_simp
  rfl

/-- They leave in `main_v1` the user rows above the item rows. -/
theorem after1_table : StableHlo.after hostOps1 Wv (Proc.devRef .tc main_v1)
    = Cert.Spec.stack (Wv (Proc.devRef .tc main_arg2)) (Wv (Proc.devRef .tc main_v0)) := by
  dsimp only [hostOps1]
  after_results
  rfl

theorem after1_arg4 : StableHlo.after hostOps1 Wv (Proc.devRef .tc main_arg4) = Wv (Proc.devRef .tc main_arg4) := by
  dsimp only [hostOps1]
  after_results

theorem after1_arg5 : StableHlo.after hostOps1 Wv (Proc.devRef .tc main_arg5) = Wv (Proc.devRef .tc main_arg5) := by
  dsimp only [hostOps1]
  after_results

theorem after1_arg6 : StableHlo.after hostOps1 Wv (Proc.devRef .tc main_arg6) = Wv (Proc.devRef .tc main_arg6) := by
  dsimp only [hostOps1]
  after_results

/-! ## The host operations after launch 1 -/

set_option maxHeartbeats 2000000 in
/-- They leave in `main_v28` the aggregate of the node table `main_v15` holds. -/
theorem after2_aggregate : StableHlo.after hostOps2 Wv (Proc.devRef .tc main_v28)
    = Cert.Spec.aggregate (Wv (Proc.devRef .tc main_v15))
        (Wv (Proc.devRef .tc main_arg4)) (Wv (Proc.devRef .tc main_arg5)) (Wv (Proc.devRef .tc main_arg6)) := by
  dsimp only [hostOps2]
  after_results_simp
  rfl

/-- They do not write the node table `main_v15`. -/
theorem after2_table : StableHlo.after hostOps2 Wv (Proc.devRef .tc main_v15) = Wv (Proc.devRef .tc main_v15) := by
  dsimp only [hostOps2]
  after_results

theorem after2_arg4 : StableHlo.after hostOps2 Wv (Proc.devRef .tc main_arg4) = Wv (Proc.devRef .tc main_arg4) := by
  dsimp only [hostOps2]
  after_results

theorem after2_arg5 : StableHlo.after hostOps2 Wv (Proc.devRef .tc main_arg5) = Wv (Proc.devRef .tc main_arg5) := by
  dsimp only [hostOps2]
  after_results

theorem after2_arg6 : StableHlo.after hostOps2 Wv (Proc.devRef .tc main_arg6) = Wv (Proc.devRef .tc main_arg6) := by
  dsimp only [hostOps2]
  after_results

/-! ## The host operations after launch 2 -/

set_option maxHeartbeats 2000000 in
/-- They leave in `main_v42` the aggregate of the node table `main_v29` holds. -/
theorem after3_aggregate : StableHlo.after hostOps3 Wv (Proc.devRef .tc main_v42)
    = Cert.Spec.aggregate (Wv (Proc.devRef .tc main_v29))
        (Wv (Proc.devRef .tc main_arg4)) (Wv (Proc.devRef .tc main_arg5)) (Wv (Proc.devRef .tc main_arg6)) := by
  dsimp only [hostOps3]
  after_results_simp
  rfl

/-- They do not write the node table `main_v29`. -/
theorem after3_table : StableHlo.after hostOps3 Wv (Proc.devRef .tc main_v29) = Wv (Proc.devRef .tc main_v29) := by
  dsimp only [hostOps3]
  after_results

theorem after3_arg4 : StableHlo.after hostOps3 Wv (Proc.devRef .tc main_arg4) = Wv (Proc.devRef .tc main_arg4) := by
  dsimp only [hostOps3]
  after_results

theorem after3_arg5 : StableHlo.after hostOps3 Wv (Proc.devRef .tc main_arg5) = Wv (Proc.devRef .tc main_arg5) := by
  dsimp only [hostOps3]
  after_results

theorem after3_arg6 : StableHlo.after hostOps3 Wv (Proc.devRef .tc main_arg6) = Wv (Proc.devRef .tc main_arg6) := by
  dsimp only [hostOps3]
  after_results

/-! ## The host operations after launch 3 -/

/-- The first result is the user rows of the table in `main_v43`. -/
theorem after4_users : StableHlo.after hostOps4 Wv (Proc.devRef .tc main_v44)
    = Cert.Spec.userRows (Wv (Proc.devRef .tc main_v43)) := by
  dsimp only [hostOps4]
  after_results
  rfl

/-- The second result is its item rows. -/
theorem after4_items : StableHlo.after hostOps4 Wv (Proc.devRef .tc main_v45)
    = Cert.Spec.itemRows (Wv (Proc.devRef .tc main_v43)) := by
  dsimp only [hostOps4]
  after_results
  rfl

end Cert.KernelIdeal.Host

end
-- ==== Proof.KernelValue.lean ====
/-
  The idealized kernel program computes the specification.

  Walking the chain of boundary contents `W0 … W8` of @main: launch 0 leaves the item table in its
  output array; the first host stretch joins it under the user rows and computes the first aggregate; each
  of the launches 1–3 leaves the sum of the node table and its aggregate, which is one propagation layer;
  the host stretches in between compute the next aggregate and touch neither the table nor an argument;
  the last stretch cuts the table after three layers into the two results.  No launch and no host
  operation writes an argument, so at every boundary the edge values and the two index arrays are as
  launched.
-/
import proofs.«131003_j23244363006255_1_alg».proof.Proof.KernelRun
import proofs.«131003_j23244363006255_1_alg».proof.Proof.ItemRegion
import proofs.«131003_j23244363006255_1_alg».proof.Proof.Sum1
import proofs.«131003_j23244363006255_1_alg».proof.Proof.Sum2
import proofs.«131003_j23244363006255_1_alg».proof.Proof.Sum3
import proofs.«131003_j23244363006255_1_alg».proof.Proof.Stretches

noncomputable section

namespace Cert.KernelIdeal.Walk

open Cert.KernelIdeal Cert.KernelIdeal.Gen Idealize.ShloMosaic Idealize.ShloMosaic.TcCoe Idealize.SL.Sem
open Cert.Spec

variable (m : (ℓ : Loc nD τ sig) → Buf (Elt Ideal) ℓ) (ρ : Dev nD → PrngReg) (c : Dev nD)

/-- A sum of two tables of which the second is the first's aggregate is one propagation layer. -/
theorem sum_is_layer (a b : S150000x96.Idx → Elt Ideal .f32)
    (e : (⟨Cert.ReferenceIdeal.S150000x96, .f32⟩ : BufTy).Contents (Elt Ideal))
    (x4 : (⟨Cert.ReferenceIdeal.S800000, .f32⟩ : BufTy).Contents (Elt Ideal))
    (x5 x6 : (⟨Cert.ReferenceIdeal.S800000, .i32⟩ : BufTy).Contents (Elt Ideal))
    (ha : a = e) (hb : b = aggregate e x4 x5 x6) :
    Cert.KernelIdeal.Sum1.tableSum a b = layer e x4 x5 x6 := by
  subst ha hb; rfl

/-! ## After launch 0 -/

theorem items1 : W1 m ρ c (Proc.devRef .tc main_v0) = itemTable (m ((c : Thread nD τ).loc main_arg0)) (m ((c : Thread nD τ).loc main_arg1)) (m ((c : Thread nD τ).loc main_arg3)) :=
  (W1_arr m ρ c 3).trans (Cert.KernelIdeal.Items.result (V0 m ρ) c)

theorem arg2_1 : W1 m ρ c (Proc.devRef .tc main_arg2) = (m ((c : Thread nD τ).loc main_arg2)) := W1_of_ne m ρ c main_arg2 (by decide)
theorem arg4_1 : W1 m ρ c (Proc.devRef .tc main_arg4) = (m ((c : Thread nD τ).loc main_arg4)) := W1_of_ne m ρ c main_arg4 (by decide)
theorem arg5_1 : W1 m ρ c (Proc.devRef .tc main_arg5) = (m ((c : Thread nD τ).loc main_arg5)) := W1_of_ne m ρ c main_arg5 (by decide)
theorem arg6_1 : W1 m ρ c (Proc.devRef .tc main_arg6) = (m ((c : Thread nD τ).loc main_arg6)) := W1_of_ne m ρ c main_arg6 (by decide)

/-! ## After the first host stretch -/

/-- The node table before the layers. -/
abbrev table0 := stack (m ((c : Thread nD τ).loc main_arg2)) (itemTable (m ((c : Thread nD τ).loc main_arg0)) (m ((c : Thread nD τ).loc main_arg1)) (m ((c : Thread nD τ).loc main_arg3)))

theorem table2 : W2 m ρ c (Proc.devRef .tc main_v1) = table0 m c := by
  refine (Cert.KernelIdeal.Host.after1_table (W1 m ρ c)).trans ?_
  rw [arg2_1, items1]

theorem agg2 : W2 m ρ c (Proc.devRef .tc main_v14) = aggregate (table0 m c) (m ((c : Thread nD τ).loc main_arg4)) (m ((c : Thread nD τ).loc main_arg5)) (m ((c : Thread nD τ).loc main_arg6)) := by
  refine (Cert.KernelIdeal.Host.after1_aggregate (W1 m ρ c)).trans ?_
  rw [arg2_1, items1, arg4_1, arg5_1, arg6_1]

theorem arg4_2 : W2 m ρ c (Proc.devRef .tc main_arg4) = (m ((c : Thread nD τ).loc main_arg4)) := (Cert.KernelIdeal.Host.after1_arg4 (W1 m ρ c)).trans (arg4_1 m ρ c)
theorem arg5_2 : W2 m ρ c (Proc.devRef .tc main_arg5) = (m ((c : Thread nD τ).loc main_arg5)) := (Cert.KernelIdeal.Host.after1_arg5 (W1 m ρ c)).trans (arg5_1 m ρ c)
theorem arg6_2 : W2 m ρ c (Proc.devRef .tc main_arg6) = (m ((c : Thread nD τ).loc main_arg6)) := (Cert.KernelIdeal.Host.after1_arg6 (W1 m ρ c)).trans (arg6_1 m ρ c)

/-! ## After launch 1 -/

/-- The node table after one layer. -/
abbrev table1 := layer (table0 m c) (m ((c : Thread nD τ).loc main_arg4)) (m ((c : Thread nD τ).loc main_arg5)) (m ((c : Thread nD τ).loc main_arg6))

theorem table3 : W3 m ρ c (Proc.devRef .tc main_v15) = table1 m c :=
  (W3_arr m ρ c 2).trans ((Cert.KernelIdeal.Sum1.result (V2 m ρ) c).trans
    (sum_is_layer _ _ _ _ _ _ (table2 m ρ c) (agg2 m ρ c)))

theorem arg4_3 : W3 m ρ c (Proc.devRef .tc main_arg4) = (m ((c : Thread nD τ).loc main_arg4)) := (W3_of_ne m ρ c main_arg4 (by decide)).trans (arg4_2 m ρ c)
theorem arg5_3 : W3 m ρ c (Proc.devRef .tc main_arg5) = (m ((c : Thread nD τ).loc main_arg5)) := (W3_of_ne m ρ c main_arg5 (by decide)).trans (arg5_2 m ρ c)
theorem arg6_3 : W3 m ρ c (Proc.devRef .tc main_arg6) = (m ((c : Thread nD τ).loc main_arg6)) := (W3_of_ne m ρ c main_arg6 (by decide)).trans (arg6_2 m ρ c)

/-! ## After the second host stretch -/

theorem table4 : W4 m ρ c (Proc.devRef .tc main_v15) = table1 m c :=
  (Cert.KernelIdeal.Host.after2_table (W3 m ρ c)).trans (table3 m ρ c)

theorem agg4 : W4 m ρ c (Proc.devRef .tc main_v28) = aggregate (table1 m c) (m ((c : Thread nD τ).loc main_arg4)) (m ((c : Thread nD τ).loc main_arg5)) (m ((c : Thread nD τ).loc main_arg6)) := by
  refine (Cert.KernelIdeal.Host.after2_aggregate (W3 m ρ c)).trans ?_
  rw [table3, arg4_3, arg5_3, arg6_3]

theorem arg4_4 : W4 m ρ c (Proc.devRef .tc main_arg4) = (m ((c : Thread nD τ).loc main_arg4)) := (Cert.KernelIdeal.Host.after2_arg4 (W3 m ρ c)).trans (arg4_3 m ρ c)
theorem arg5_4 : W4 m ρ c (Proc.devRef .tc main_arg5) = (m ((c : Thread nD τ).loc main_arg5)) := (Cert.KernelIdeal.Host.after2_arg5 (W3 m ρ c)).trans (arg5_3 m ρ c)
theorem arg6_4 : W4 m ρ c (Proc.devRef .tc main_arg6) = (m ((c : Thread nD τ).loc main_arg6)) := (Cert.KernelIdeal.Host.after2_arg6 (W3 m ρ c)).trans (arg6_3 m ρ c)

/-! ## After launch 2 -/

/-- The node table after two layers. -/
abbrev table2L := layer (table1 m c) (m ((c : Thread nD τ).loc main_arg4)) (m ((c : Thread nD τ).loc main_arg5)) (m ((c : Thread nD τ).loc main_arg6))

theorem table5 : W5 m ρ c (Proc.devRef .tc main_v29) = table2L m c :=
  (W5_arr m ρ c 2).trans ((Cert.KernelIdeal.Sum2.result (V4 m ρ) c).trans
    (sum_is_layer _ _ _ _ _ _ (table4 m ρ c) (agg4 m ρ c)))

theorem arg4_5 : W5 m ρ c (Proc.devRef .tc main_arg4) = (m ((c : Thread nD τ).loc main_arg4)) := (W5_of_ne m ρ c main_arg4 (by decide)).trans (arg4_4 m ρ c)
theorem arg5_5 : W5 m ρ c (Proc.devRef .tc main_arg5) = (m ((c : Thread nD τ).loc main_arg5)) := (W5_of_ne m ρ c main_arg5 (by decide)).trans (arg5_4 m ρ c)
theorem arg6_5 : W5 m ρ c (Proc.devRef .tc main_arg6) = (m ((c : Thread nD τ).loc main_arg6)) := (W5_of_ne m ρ c main_arg6 (by decide)).trans (arg6_4 m ρ c)

/-! ## After the third host stretch -/

theorem table6 : W6 m ρ c (Proc.devRef .tc main_v29) = table2L m c :=
  (Cert.KernelIdeal.Host.after3_table (W5 m ρ c)).trans (table5 m ρ c)

theorem agg6 : W6 m ρ c (Proc.devRef .tc main_v42) = aggregate (table2L m c) (m ((c : Thread nD τ).loc main_arg4)) (m ((c : Thread nD τ).loc main_arg5)) (m ((c : Thread nD τ).loc main_arg6)) := by
  refine (Cert.KernelIdeal.Host.after3_aggregate (W5 m ρ c)).trans ?_
  rw [table5, arg4_5, arg5_5, arg6_5]

/-! ## After launch 3, and the results -/

theorem table7 : W7 m ρ c (Proc.devRef .tc main_v43)
    = propagated (m ((c : Thread nD τ).loc main_arg2)) (itemTable (m ((c : Thread nD τ).loc main_arg0)) (m ((c : Thread nD τ).loc main_arg1)) (m ((c : Thread nD τ).loc main_arg3))) (m ((c : Thread nD τ).loc main_arg4)) (m ((c : Thread nD τ).loc main_arg5)) (m ((c : Thread nD τ).loc main_arg6)) :=
  (W7_arr m ρ c 2).trans ((Cert.KernelIdeal.Sum3.result (V6 m ρ) c).trans
    (sum_is_layer _ _ _ _ _ _ (table6 m ρ c) (agg6 m ρ c)))

/-- The first result buffer ends at the user rows of the propagated table. -/
theorem users8 : W8 m ρ c (Proc.devRef .tc main_v44)
    = userRows (propagated (m ((c : Thread nD τ).loc main_arg2)) (itemTable (m ((c : Thread nD τ).loc main_arg0)) (m ((c : Thread nD τ).loc main_arg1)) (m ((c : Thread nD τ).loc main_arg3))) (m ((c : Thread nD τ).loc main_arg4)) (m ((c : Thread nD τ).loc main_arg5)) (m ((c : Thread nD τ).loc main_arg6))) :=
  (Cert.KernelIdeal.Host.after4_users (W7 m ρ c)).trans (congrArg userRows (table7 m ρ c))

/-- The second result buffer ends at its item rows. -/
theorem items8 : W8 m ρ c (Proc.devRef .tc main_v45)
    = itemRows (propagated (m ((c : Thread nD τ).loc main_arg2)) (itemTable (m ((c : Thread nD τ).loc main_arg0)) (m ((c : Thread nD τ).loc main_arg1)) (m ((c : Thread nD τ).loc main_arg3))) (m ((c : Thread nD τ).loc main_arg4)) (m ((c : Thread nD τ).loc main_arg5)) (m ((c : Thread nD τ).loc main_arg6))) :=
  (Cert.KernelIdeal.Host.after4_items (W7 m ρ c)).trans (congrArg itemRows (table7 m ρ c))

end Cert.KernelIdeal.Walk

end
-- ==== Proof.RefSpec.lean ====
/-
  The reference program computes the specification: its operations, read one after the other, are the
  specification's definitions — the projection, the two joins, and three times the index wrap, the gather,
  the product with the edge values, the scatter-add from zero and the sum with the table; then the two cuts.
-/
import proofs.«131003_j23244363006255_1_alg».proof.Proof.Gen.ReferenceIdeal.Read
import proofs.«131003_j23244363006255_1_alg».proof.Proof.Spec

noncomputable section

namespace Cert.ReferenceIdeal.RefValue

open Cert.ReferenceIdeal Cert.ReferenceIdeal.Gen Cert.ReferenceIdeal.Read Idealize.ShloMosaic Cert.Spec

variable {F : FTy → Type} [FloatOps F]
variable (x0 : (⟨S50000x512, .f32⟩ : BufTy).Contents (Elt F)) (x1 : (⟨S32x512, .f32⟩ : BufTy).Contents (Elt F))
  (x2 : (⟨S100000x96, .f32⟩ : BufTy).Contents (Elt F)) (x3 : (⟨S50000x64, .f32⟩ : BufTy).Contents (Elt F))
  (x4 : (⟨S800000, .f32⟩ : BufTy).Contents (Elt F)) (x5 x6 : (⟨S800000, .i32⟩ : BufTy).Contents (Elt F))

/-- The reference's node table before the layers. -/
theorem table0 : val_main_v3 (F := F) x0 x1 x2 x3 = stack x2 (itemTable x0 x1 x3) := rfl

/-- Its first aggregate. -/
theorem agg1 : val_main_v16 (F := F) x0 x1 x2 x3 x4 x5 x6 = aggregate (val_main_v3 (F := F) x0 x1 x2 x3) x4 x5 x6 := rfl

/-- Its table after one layer. -/
theorem table1 : val_main_v17 (F := F) x0 x1 x2 x3 x4 x5 x6 = layer (val_main_v3 (F := F) x0 x1 x2 x3) x4 x5 x6 := rfl

theorem agg2 : val_main_v30 (F := F) x0 x1 x2 x3 x4 x5 x6 = aggregate (val_main_v17 (F := F) x0 x1 x2 x3 x4 x5 x6) x4 x5 x6 := rfl

theorem table2 : val_main_v31 (F := F) x0 x1 x2 x3 x4 x5 x6 = layer (val_main_v17 (F := F) x0 x1 x2 x3 x4 x5 x6) x4 x5 x6 := rfl

theorem agg3 : val_main_v44 (F := F) x0 x1 x2 x3 x4 x5 x6 = aggregate (val_main_v31 (F := F) x0 x1 x2 x3 x4 x5 x6) x4 x5 x6 := rfl

theorem table3 : val_main_v45 (F := F) x0 x1 x2 x3 x4 x5 x6 = layer (val_main_v31 (F := F) x0 x1 x2 x3 x4 x5 x6) x4 x5 x6 := rfl

/-- The reference's table after the three layers is the specification's. -/
theorem table3_eq : val_main_v45 (F := F) x0 x1 x2 x3 x4 x5 x6 = propagated x2 (itemTable x0 x1 x3) x4 x5 x6 := by
  rw [table3, table2, table1, table0]; rfl

/-- Its first result: the user rows of the propagated table. -/
theorem users_eq : val_main_v46 (F := F) x0 x1 x2 x3 x4 x5 x6 = userRows (propagated x2 (itemTable x0 x1 x3) x4 x5 x6) := by
  rw [← table3_eq]; rfl

/-- Its second result: the item rows. -/
theorem items_eq : val_main_v47 (F := F) x0 x1 x2 x3 x4 x5 x6 = itemRows (propagated x2 (itemTable x0 x1 x3) x4 x5 x6) := by
  rw [← table3_eq]; rfl

end Cert.ReferenceIdeal.RefValue

end
-- ==== Proof.lean ====
/-
  The kernel builds the item table (the latent embedding joined with `missing_attr · W_transᵀ`, computed block
  by block on the MXU from operands rounded to bf16) in one pipelined launch, stacks it under the user rows,
  and applies three propagation layers `e ↦ e + aggregate(e)`, where the aggregate — gather of the rows
  `e[cols]`, product with the edge values, scatter-add into the rows `rows` — is computed by host operations
  and the sum by a second pipelined kernel, launched once per layer.  The reference does all of it on the host.

  On the extended reals the rounding to bf16 is the identity and the MXU product into a zero accumulator is the
  plain sum over the contracted axis, which is what the reference's `dot_general` against the transposed
  weight is; the gather, the product and the scatter-add are the SAME operations in both programs; the sum kernel
  is the reference's elementwise sum.  No algebraic law beyond these readings joins the two sides, so the
  precondition (finite inputs) is never opened.

  The frames of the two kernel programs are the generated ones; the reference's frame is its generated run with
  the results dropped; no operation was rewritten by the idealization, so `preserves` has nothing to state.
  `algebraic`: the kernel program ends with its two results at the specification's `userRows` / `itemRows` of the
  propagated table (KernelRun, KernelValue) and the reference at the same functions of its arguments
  (the generated run and read-back, RefSpec), and the arguments agree.
-/
import proofs.«131003_j23244363006255_1_alg».proof.Defs
import proofs.«131003_j23244363006255_1_alg».proof.Proof.Gen.Kernel
import proofs.«131003_j23244363006255_1_alg».proof.Proof.Gen.Kernel.Skeleton
import proofs.«131003_j23244363006255_1_alg».proof.Proof.Gen.Kernel.Launch
import proofs.«131003_j23244363006255_1_alg».proof.Proof.Gen.Kernel.Points
import proofs.«131003_j23244363006255_1_alg».proof.Proof.Gen.Kernel.Frame
import proofs.«131003_j23244363006255_1_alg».proof.Proof.Gen.KernelIdeal
import proofs.«131003_j23244363006255_1_alg».proof.Proof.Gen.KernelIdeal.Skeleton
import proofs.«131003_j23244363006255_1_alg».proof.Proof.Gen.KernelIdeal.Launch
import proofs.«131003_j23244363006255_1_alg».proof.Proof.Gen.KernelIdeal.Points
import proofs.«131003_j23244363006255_1_alg».proof.Proof.Gen.KernelIdeal.Frame
import proofs.«131003_j23244363006255_1_alg».proof.Proof.Gen.ReferenceIdeal
import proofs.«131003_j23244363006255_1_alg».proof.Proof.Gen.Pre_finite_inputs
import proofs.«131003_j23244363006255_1_alg».proof.Proof.Gen.ReferenceIdeal.Run
import proofs.«131003_j23244363006255_1_alg».proof.Proof.Gen.ReferenceIdeal.Read
import proofs.«131003_j23244363006255_1_alg».proof.Proof.KernelValue
import proofs.«131003_j23244363006255_1_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The idealized kernel program's run, its results at the specification of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v44)
          = Cert.Spec.userRows (Cert.Spec.propagated (m ((c.tc : Thread Cert.KernelIdeal.nD Cert.KernelIdeal.τ).loc Cert.KernelIdeal.main_arg2)) (Cert.Spec.itemTable (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        ∧ r.2.mem ((c.tc : Thread Cert.KernelIdeal.nD Cert.KernelIdeal.τ).loc Cert.KernelIdeal.main_v45)
          = Cert.Spec.itemRows (Cert.Spec.propagated (m ((c.tc : Thread Cert.KernelIdeal.nD Cert.KernelIdeal.τ).loc Cert.KernelIdeal.main_arg2)) (Cert.Spec.itemTable (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg6) = (m ((c.tc : Thread Cert.KernelIdeal.nD Cert.KernelIdeal.τ).loc Cert.KernelIdeal.main_arg6))) :=
  (θ_run Cert.KernelIdeal.defs _ _).mono
    (fun _ h c => ⟨(h c).1.trans (Cert.KernelIdeal.Walk.users8 m ρ c), (h c).2.1.trans (Cert.KernelIdeal.Walk.items8 m ρ c), (h c).2.2⟩)
    (Cert.KernelIdeal.Walk.run_values (F := Ideal) m ρ)

/-- Both idealized programs end with their results at the specification of their arguments, and the
    arguments agree. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨?_, ?_, (h c).2.2⟩)
    (Cert.ReferenceIdeal.Value.run (F := Ideal) m' ρ')
  · refine ((h c).1.trans ((Cert.ReferenceIdeal.Read.val_main_v46_eq m' c).trans
      (Cert.ReferenceIdeal.RefValue.users_eq _ _ _ _ _ _ _))).trans ?_
    rw [(hagree c).1, (hagree c).2.1, (hagree c).2.2.1, (hagree c).2.2.2.1, (hagree c).2.2.2.2.1,
      (hagree c).2.2.2.2.2.1, (hagree c).2.2.2.2.2.2]
  · refine ((h c).2.1.trans ((Cert.ReferenceIdeal.Read.val_main_v47_eq m' c).trans
      (Cert.ReferenceIdeal.RefValue.items_eq _ _ _ _ _ _ _))).trans ?_
    rw [(hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
